-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : FVec F S128x384 .f32) (main_arg2 : FVec F S384 .f32) (main_arg3 : FVec F S384x256 .f32) (main_arg4 : FVec F S256 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x256 .f32 := Host.absf main_arg3
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg4 main_v13 main_v16
-- ==== Kernel.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x384 : Shape := ⟨2, ![1, 384]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S2000x384 : Shape := ⟨2, ![2000, 384]⟩
abbrev S800000x256 : Shape := ⟨2, ![800000, 256]⟩
abbrev S1x256 : Shape := ⟨2, ![1, 256]⟩
abbrev S50000x16x16 : Shape := ⟨3, ![50000, 16, 16]⟩

abbrev nBuf : Space → Nat
  | .hbm => 86
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S128x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x1, .f32⟩
  | .hbm, ⟨36, _⟩ => ⟨S50000x128, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .bf16⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000, .f32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x384, .f32⟩
  | .hbm, ⟨64, _⟩ => ⟨S50000x256, .f32⟩
  | .hbm, ⟨65, _⟩ => ⟨S50000x256, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .bf16⟩
  | .hbm, ⟨75, _⟩ => ⟨S800000x256, .f32⟩
  | .hbm, ⟨76, _⟩ => ⟨S_, .f32⟩
  | .hbm, ⟨77, _⟩ => ⟨S50000x256, .f32⟩
  | .hbm, ⟨78, _⟩ => ⟨S800000x1, .i32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S50000x16x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x384, .f32⟩
  | .local _ .vmem, ⟨7, _⟩ => ⟨S1x384, .f32⟩
  | .local _ .vmem, ⟨8, _⟩ => ⟨S384x256, .f32⟩
  | .local _ .vmem, ⟨9, _⟩ => ⟨S2000x256, .f32⟩
  | .local _ .vmem, ⟨10, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S384x256_S384x256_0_0 : ∀ a, (![0, 0] : Fin 2 → Nat) a + S384x256.size a ≤ S384x256.size a
  h_S384x256 : 0 < S384x256.numel
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x16x16 : S50000x256.ShapeCasts S50000x16x16
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  dot_S2000x384_S384x256_S2000x256_1_0_0_1_n_n_wf : DotDims.WF S2000x384 S384x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x256.size a ≤ S384x256.size a
  hwx0_5 : ∀ i : grid0.Coords, EltTy.bits .f32 = 32 ∨ (Rect.block (s := S384x256) S384x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_v40) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S384x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x384 : Shape := ⟨2, ![128, 384]⟩
abbrev S384 : Shape := ⟨1, ![384]⟩
abbrev S384x256 : Shape := ⟨2, ![384, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x384 : Shape := ⟨2, ![1, 384]⟩
abbrev S50000x256 : Shape := ⟨2, ![50000, 256]⟩
abbrev S800000x256 : Shape := ⟨2, ![800000, 256]⟩
abbrev S1x256 : Shape := ⟨2, ![1, 256]⟩
abbrev S50000x16x16 : Shape := ⟨3, ![50000, 16, 16]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x384, .f32⟩
  | .hbm, ⟨2, _⟩ => ⟨S384, .f32⟩
  | .hbm, ⟨3, _⟩ => ⟨S384x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S50000x384, .f32⟩
  | .hbm, ⟨54, _⟩ => ⟨S1x384, .f32⟩
  | .hbm, ⟨55, _⟩ => ⟨S50000x384, .f32⟩
  | .hbm, ⟨56, _⟩ => ⟨S50000x384, .f32⟩
  | .hbm, ⟨57, _⟩ => ⟨S_, .f32⟩
  | .hbm, ⟨58, _⟩ => ⟨S50000x384, .f32⟩
  | .hbm, ⟨59, _⟩ => ⟨S50000x384, .f32⟩
  | .hbm, ⟨60, _⟩ => ⟨S50000x256, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x256, .f32⟩
  | .hbm, ⟨73, _⟩ => ⟨S_, .f32⟩
  | .hbm, ⟨74, _⟩ => ⟨S50000x256, .f32⟩
  | .hbm, ⟨75, _⟩ => ⟨S800000x1, .i32⟩
  | .hbm, ⟨76, _⟩ => ⟨S50000x256, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S50000x16x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  bcast_S_S50000x384 : S_.BroadcastsInDim S50000x384 (![] : Fin 0 → Fin S50000x384.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S50000x256_S50000x16x16 : S50000x256.ShapeCasts S50000x16x16
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []
  dot_S50000x384_S384x256_S50000x256_1_0_0_1_n_n_wf : DotDims.WF S50000x384 S384x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«108863_j41867341201760_2_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«108863_j41867341201760_2_alg».proof.Proof.LibMatmulPlain
import proofs.«108863_j41867341201760_2_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.LibScaledLayers.lean ====
/-
  Two dense layers between two per-row scalings, on the extended reals, for any extents, and the two spellings that denote
  them.

  For a matrix x : [m, a], per-row factors sIn, sOut : [m], weights w1 : [a, h], w2 : [h, o] and a bias b1 : [h]:

      twoLayers x sIn sOut w1 b1 w2 (r, q) = ( sum_k  max( sum_j (x(r, j) * sIn(r)) * w1(j, k) + b1(k) , 0 ) * w2(k, q) ) * sOut(r).

  Entry (r, q) reads row r of x and the factors of row r only, so the function computed on a block of consecutive rows is the
  restriction of the function computed on the whole matrix (twoLayers_row). A vector program spells it with products on the
  matrix unit into zero accumulators, its operands cast to a narrower float format (the identity here), the factors as [m, 1]
  columns and the bias as a [1, h] row, each broadcast; a host program spells it with general products and the factors and
  bias broadcast along named axes. Both are twoLayers (tile_twoLayers, host_twoLayers). No law of arithmetic is used beyond
  0 + t = t: both spellings take the same sums of the same products in the same order.
-/
import Idealize.ShloMosaic.Lib.ValueLayout
import Idealize.ShloMosaic.Lib.Pipeline.Value
import Idealize.ShloMosaic.PureOps.Ideal.Laws
import proofs.«108863_j41867341201760_2_alg».proof.Proof.LibDenseLayers
import proofs.«108863_j41867341201760_2_alg».proof.Proof.LibKeepdims
import proofs.«108863_j41867341201760_2_alg».proof.Proof.LibBroadcastInDim

noncomputable section

namespace Cert.ScaledLayers

open Idealize.ShloMosaic Idealize.ShloMosaic.ValueIdx Cert.LibMatmulPlain Cert.Layers

variable {m a h o n : Nat}

/-- Each row of x multiplied by that row's factor. -/
def scaleRows (x : Mat m n) (s : Row m) : Mat m n := fun i => x i * s (ix1 (i 0))

/-- The two dense layers between the two scalings. -/
def twoLayers (x : Mat m a) (sIn sOut : Row m) (w1 : Mat a h) (b1 : Row h) (w2 : Mat h o) : Mat m o :=
  scaleRows (mm (rect (dense (scaleRows x sIn) w1 b1)) w2) sOut

/-- An [m, 1] column read as a vector. -/
def colVec (c : (⟨2, ![m, 1]⟩ : Shape).Idx → EReal) : Row m := fun i => c (ix2 (i 0) (0 : Fin 1))

/-- A [1, n] row read as a vector. -/
def rowVec (r : (⟨2, ![1, n]⟩ : Shape).Idx → EReal) : Row n := fun i => r (ix2 (0 : Fin 1) (i 0))

theorem twoLayers_apply (x : Mat m a) (sIn sOut : Row m) (w1 : Mat a h) (b1 : Row h) (w2 : Mat h o) (r : Fin m) (q : Fin o) :
    twoLayers x sIn sOut w1 b1 w2 (ix2 r q)
      = (∑ k : Fin h, max ((∑ j : Fin a, (x (ix2 r j) * sIn (ix1 r)) * w1 (ix2 j k)) + b1 (ix1 k)) (Ideal.ofBits .f32 0x00000000#32)
          * w2 (ix2 k q)) * sOut (ix1 r) := rfl

/-- Entry (r, q) depends on row r alone: two matrices (of any heights) that agree on a row, with equal factors there, give
    equal entries on it. -/
theorem twoLayers_row {m' : Nat} (x : Mat m a) (x' : Mat m' a) (sIn sOut : Row m) (sIn' sOut' : Row m')
    (w1 : Mat a h) (b1 : Row h) (w2 : Mat h o) (r : Fin m) (r' : Fin m') (q : Fin o)
    (hx : ∀ j : Fin a, x (ix2 r j) = x' (ix2 r' j)) (hi : sIn (ix1 r) = sIn' (ix1 r')) (ho : sOut (ix1 r) = sOut' (ix1 r')) :
    twoLayers x sIn sOut w1 b1 w2 (ix2 r q) = twoLayers x' sIn' sOut' w1 b1 w2 (ix2 r' q) := by
  rw [twoLayers_apply, twoLayers_apply, hi, ho]
  simp only [hx]

/-! ## The vector program's spelling -/

/-- A format change is the identity on the extended reals. -/
theorem truncf_id {s : Shape} {ψ : FTy} (v : FVec Ideal s .f32) (hψ : ψ.bits < FTy.f32.bits) : truncf ψ v hψ = v := rfl

/-- A matrix times an [m, 1] column repeated across its columns. -/
theorem tileScale_eq (x : FVec Ideal ⟨2, ![m, n]⟩ .f32) (c : FVec Ideal ⟨2, ![m, 1]⟩ .f32)
    (hb : (⟨2, ![m, 1]⟩ : Shape).Broadcasts ⟨2, ![m, n]⟩) :
    mulf x (broadcastTo ⟨2, ![m, n]⟩ c hb) = scaleRows x (colVec c) := by
  funext i
  obtain ⟨p, q, rfl⟩ : ∃ (p : Fin m) (q : Fin n), i = ix2 p q := ⟨i 0, i 1, eq_ix2 i⟩
  show x (ix2 p q) * broadcastTo ⟨2, ![m, n]⟩ c hb (ix2 p q) = _
  rw [Cert.Lib.Keepdims.bcastCol_apply c hb p q]
  rfl

/-- A [1, n] row repeated down m rows. -/
theorem tileRowBias_eq (r : FVec Ideal ⟨2, ![1, n]⟩ .f32) (hb : (⟨2, ![1, n]⟩ : Shape).Broadcasts ⟨2, ![m, n]⟩) :
    broadcastTo ⟨2, ![m, n]⟩ r hb = bias m (rowVec r) := by
  funext i
  obtain ⟨p, q, rfl⟩ : ∃ (p : Fin m) (q : Fin n), i = ix2 p q := ⟨i 0, i 1, eq_ix2 i⟩
  exact broadcastTo_1b_ab_apply r hb p q

/-- THE VECTOR PROGRAM'S SPELLING is twoLayers of the block, the two factor columns read as vectors and the bias row read as
    a vector. -/
theorem tile_twoLayers {ψ : FTy}
    (d1 : DotDims ⟨2, ![m, a]⟩ ⟨2, ![a, h]⟩ ⟨2, ![m, h]⟩)
    (wf1 : DotDims.WF ⟨2, ![m, a]⟩ ⟨2, ![a, h]⟩ ⟨2, ![m, h]⟩ [1] [0] [0] [1] [] []) (hd1 : d1 = plainDims m a h wf1)
    (d2 : DotDims ⟨2, ![m, h]⟩ ⟨2, ![h, o]⟩ ⟨2, ![m, o]⟩)
    (wf2 : DotDims.WF ⟨2, ![m, h]⟩ ⟨2, ![h, o]⟩ ⟨2, ![m, o]⟩ [1] [0] [0] [1] [] []) (hd2 : d2 = plainDims m h o wf2)
    (x : FVec Ideal ⟨2, ![m, a]⟩ .f32) (cIn cOut : FVec Ideal ⟨2, ![m, 1]⟩ .f32) (w1 : FVec Ideal ⟨2, ![a, h]⟩ .f32)
    (brow : FVec Ideal ⟨2, ![1, h]⟩ .f32) (w2 : FVec Ideal ⟨2, ![h, o]⟩ .f32) (hψ : ψ.bits < FTy.f32.bits)
    (hbA : (⟨2, ![m, 1]⟩ : Shape).Broadcasts ⟨2, ![m, a]⟩) (hbH : (⟨2, ![1, h]⟩ : Shape).Broadcasts ⟨2, ![m, h]⟩)
    (hbO : (⟨2, ![m, 1]⟩ : Shape).Broadcasts ⟨2, ![m, o]⟩) :
    mulf (matmul d2 none
          (truncf ψ (maximumf (addf (matmul d1 none (truncf ψ (mulf x (broadcastTo ⟨2, ![m, a]⟩ cIn hbA)) hψ) (truncf ψ w1 hψ)
                (constant ⟨2, ![m, h]⟩ .f32 0x00000000#32)) (broadcastTo ⟨2, ![m, h]⟩ brow hbH))
              (broadcast ⟨2, ![m, h]⟩ (Scalar.ofBits (F := Ideal) .f32 0x00000000#32))) hψ)
          (truncf ψ w2 hψ) (constant ⟨2, ![m, o]⟩ .f32 0x00000000#32))
        (broadcastTo ⟨2, ![m, o]⟩ cOut hbO)
      = twoLayers x (colVec cIn) (colVec cOut) w1 (rowVec brow) w2 := by
  rw [tileMm_eq d2 wf2 hd2 _ w2 hψ, tileMm_eq d1 wf1 hd1 _ w1 hψ, tileRect_eq, tileScale_eq, tileRowBias_eq, tileScale_eq]
  rfl

/-! ## The host program's spelling -/

/-- A matrix times a vector laid out as a column (along axis 0) and repeated across the columns (along axes 0, 1). -/
theorem hostScale_eq (x : FVec Ideal ⟨2, ![m, n]⟩ .f32) (s : FVec Ideal ⟨1, ![m]⟩ .f32)
    (h1 : (⟨1, ![m]⟩ : Shape).BroadcastsInDim ⟨2, ![m, 1]⟩ (![0] : Fin 1 → Fin 2))
    (h2 : (⟨2, ![m, 1]⟩ : Shape).BroadcastsInDim ⟨2, ![m, n]⟩ (![0, 1] : Fin 2 → Fin 2)) :
    mulf x (broadcastInDim ⟨2, ![m, n]⟩ ![0, 1] h2 (broadcastInDim ⟨2, ![m, 1]⟩ ![0] h1 s)) = scaleRows x s := by
  funext i
  obtain ⟨p, q, rfl⟩ : ∃ (p : Fin m) (q : Fin n), i = ix2 p q := ⟨i 0, i 1, eq_ix2 i⟩
  show x (ix2 p q) * broadcastInDim ⟨2, ![m, n]⟩ ![0, 1] h2 (broadcastInDim ⟨2, ![m, 1]⟩ ![0] h1 s) (ix2 p q) = _
  rw [Cert.Lib.BroadcastInDim.colAcross_apply h2 _ p q, Cert.Lib.BroadcastInDim.vecAsCol_apply h1 s p]
  rfl

/-- THE HOST PROGRAM'S SPELLING is twoLayers of the whole matrix. -/
theorem host_twoLayers
    (d1 : DotDims ⟨2, ![m, a]⟩ ⟨2, ![a, h]⟩ ⟨2, ![m, h]⟩)
    (wf1 : DotDims.WF ⟨2, ![m, a]⟩ ⟨2, ![a, h]⟩ ⟨2, ![m, h]⟩ [1] [0] [0] [1] [] []) (hd1 : d1 = plainDims m a h wf1)
    (d2 : DotDims ⟨2, ![m, h]⟩ ⟨2, ![h, o]⟩ ⟨2, ![m, o]⟩)
    (wf2 : DotDims.WF ⟨2, ![m, h]⟩ ⟨2, ![h, o]⟩ ⟨2, ![m, o]⟩ [1] [0] [0] [1] [] []) (hd2 : d2 = plainDims m h o wf2)
    (x : FVec Ideal ⟨2, ![m, a]⟩ .f32) (sIn sOut : FVec Ideal ⟨1, ![m]⟩ .f32) (w1 : FVec Ideal ⟨2, ![a, h]⟩ .f32)
    (b1 : FVec Ideal ⟨1, ![h]⟩ .f32) (w2 : FVec Ideal ⟨2, ![h, o]⟩ .f32)
    (hM : (⟨1, ![m]⟩ : Shape).BroadcastsInDim ⟨2, ![m, 1]⟩ (![0] : Fin 1 → Fin 2))
    (hA : (⟨2, ![m, 1]⟩ : Shape).BroadcastsInDim ⟨2, ![m, a]⟩ (![0, 1] : Fin 2 → Fin 2))
    (hH1 : (⟨1, ![h]⟩ : Shape).BroadcastsInDim ⟨2, ![1, h]⟩ (![1] : Fin 1 → Fin 2))
    (hH2 : (⟨2, ![1, h]⟩ : Shape).BroadcastsInDim ⟨2, ![m, h]⟩ (![0, 1] : Fin 2 → Fin 2))
    (hZ : (⟨0, ![]⟩ : Shape).BroadcastsInDim ⟨2, ![m, h]⟩ (![] : Fin 0 → Fin 2))
    (hO : (⟨2, ![m, 1]⟩ : Shape).BroadcastsInDim ⟨2, ![m, o]⟩ (![0, 1] : Fin 2 → Fin 2)) :
    mulf (Host.dotGeneral d2 none
          (maximumf (addf (Host.dotGeneral d1 none
                (mulf x (broadcastInDim ⟨2, ![m, a]⟩ ![0, 1] hA (broadcastInDim ⟨2, ![m, 1]⟩ ![0] hM sIn))) w1)
              (broadcastInDim ⟨2, ![m, h]⟩ ![0, 1] hH2 (broadcastInDim ⟨2, ![1, h]⟩ ![1] hH1 b1)))
            (broadcastInDim ⟨2, ![m, h]⟩ ![] hZ (constant (F := Ideal) ⟨0, ![]⟩ .f32 0x00000000#32))) w2)
        (broadcastInDim ⟨2, ![m, o]⟩ ![0, 1] hO (broadcastInDim ⟨2, ![m, 1]⟩ ![0] hM sOut))
      = twoLayers x sIn sOut w1 b1 w2 := by
  rw [hostMm_eq d2 wf2 hd2, hostMm_eq d1 wf1 hd1, hostBias_eq, hostRect_eq, hostScale_eq, hostScale_eq]
  rfl

end Cert.ScaledLayers

end
-- ==== Proof.KPay.lean ====
/-
  What the kernel's body stores, as a function of the blocks it loads.

  At one grid point the body loads a block of 2000 rows of the aggregated features [2000, 128], the two blocks of per-row
  factors [2000, 1], and the whole weights and bias row. It scales the rows by the first factor, multiplies by the first
  weight, adds the bias, rectifies, multiplies by the second weight and scales the rows by the second factor. Its identity
  reshapes drop out, and what is left is the vector program's spelling of twoLayers of the block.
-/
import proofs.«108863_j41867341201760_2_alg».proof.Proof.Gen.KernelIdeal.Skeleton
import proofs.«108863_j41867341201760_2_alg».proof.Proof.LibScaledLayers
import Idealize.ShloMosaic.Lib.Pipeline.Value

noncomputable section

namespace Cert.KernelIdeal.Bridge

open Cert.KernelIdeal Cert.KernelIdeal.Gen Idealize.ShloMosaic Idealize.ShloMosaic.ValueIdx Cert.ScaledLayers

/-- The stored value is twoLayers of the loaded block: x0 the block's rows, x1 and x2 the factor columns (first and second
    scaling), x3 and x5 the weights, x4 the bias row. -/
theorem pay_eq (x0 : Vec Ideal S2000x128 .f32) (x1 : Vec Ideal S2000x1 .f32) (x3 : Vec Ideal S128x384 .f32)
    (x4 : Vec Ideal S1x384 .f32) (x5 : Vec Ideal S384x256 .f32) (x2 : Vec Ideal S2000x1 .f32) :
    k0_pay1 (F := Ideal) x0 x1 x3 x4 x5 x2 = twoLayers x0 (colVec x1) (colVec x2) x3 (rowVec x4) x5 := by
  unfold k0_pay1
  simp only [shapeCast_self]
  exact tile_twoLayers _ Facts₀.dot_S2000x128_S128x384_S2000x384_1_0_0_1_n_n_wf rfl
    _ Facts₀.dot_S2000x384_S384x256_S2000x256_1_0_0_1_n_n_wf rfl x0 x1 x2 x3 x4 x5 _ _ _ _

end Cert.KernelIdeal.Bridge

end
-- ==== Proof.KIndex.lean ====
/-
  The kernel's grid and windows, read as arithmetic.

  The grid has 25 points; point t stages rows 2000 t .. 2000 t + 1999 of the aggregated features [50000, 128] and of the two
  factor columns [50000, 1], the whole weights and bias row, and writes back rows 2000 t .. 2000 t + 1999 of the result
  [50000, 256]. Here: the result array as one function of the arrays the region finds (wholeLayers), and the printed index
  maps decided over the grid.
-/
import proofs.«108863_j41867341201760_2_alg».proof.Proof.Gen.KernelIdeal.Frame
import proofs.«108863_j41867341201760_2_alg».proof.Proof.KPay
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.ScaledLayers Cert.Layers
open Idealize.ShloMosaic.Pipeline (Dat)

variable (m : (ℓ : Loc nD τ sig) → Buf (Elt Ideal) ℓ)

/-- The result array as one function of the arrays the region finds: the aggregated features, the two factor columns, the
    weights and the bias row. -/
def wholeLayers (agg : S50000x128.Idx → EReal) (cIn cOut : S50000x1.Idx → EReal) (w1 : S128x384.Idx → EReal)
    (brow : S1x384.Idx → EReal) (w2 : S384x256.Idx → EReal) : S50000x256.Idx → EReal :=
  twoLayers agg (colVec cIn) (colVec cOut) w1 (rowVec brow) w2

theorem zeroOffsets : (![0, 0] : Fin 2 → Nat) = fun _ => 0 := funext fun a => by fin_cases a <;> rfl

/-- The printed index maps over the grid: the row-blocked windows are at block row t, column block 0; the resident ones at
    block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem gridPoints : cfg0.N = 25 := N_0

/-- Row p of point t's block is row 2000 t + p of the array. -/
def rowOf (t : Fin cfg0.N) (p : Fin 2000) : Fin 50000 :=
  ⟨t.val * 2000 + p.val, by have h : cfg0.N = 25 := gridPoints; have := t.isLt; have := p.isLt; omega⟩

end Cert.KernelIdeal.Bridge

end
-- ==== Proof.KReads.lean ====
/-
  Each window's block at a grid point, read at an entry, for ANY contents of the window's array.

  Point t's block of a row-blocked window (the aggregated features, the two factor columns, the result) is rows
  2000 t .. 2000 t + 1999 of its array: entry (p, j) of the block is entry (2000 t + p, j) of the array. A resident window's
  block (the two weights, the bias row) is its whole array. The arrays are variables here: nothing about how the host computed
  them is looked at.
-/
import proofs.«108863_j41867341201760_2_alg».proof.Proof.KIndex

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.ScaledLayers Cert.Layers
open Idealize.ShloMosaic.Pipeline (Dat)

variable (m : (ℓ : Loc nD τ sig) → Buf (Elt Ideal) ℓ)

/-- The resident windows' blocks are their whole arrays. -/
theorem read3 (A : S128x384.Idx → EReal) (t : Fin cfg0.N) : ((cfg0.win 3).blk t).view.read (Elt Ideal) A = A := by
  obtain ⟨-, -, -, -, -, -, e0, e1, -⟩ := blockIndex t
  funext y
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 384 + 1 * (y 1).val = (y 1).val; omega

theorem read4 (A : S1x384.Idx → EReal) (t : Fin cfg0.N) : ((cfg0.win 4).blk t).view.read (Elt Ideal) A = A := by
  obtain ⟨-, -, -, -, -, -, -, -, e0, e1, -⟩ := blockIndex t
  funext y
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 384 + 1 * (y 1).val = (y 1).val; omega

theorem read5 (A : S384x256.Idx → EReal) (t : Fin cfg0.N) : ((cfg0.win 5).blk t).view.read (Elt Ideal) A = A := by
  obtain ⟨-, -, -, -, -, -, -, -, -, -, e0, e1, -⟩ := blockIndex t
  funext y
  show A (((cfg0.win 5).blk t).view.emb y) = A y
  refine congrArg A (funext fun a => Fin.ext ?_)
  match a with
  | ⟨0, _⟩ => show win0_5.index t (0 : Fin 2) * 384 + 1 * (y 0).val = (y 0).val; omega
  | ⟨1, _⟩ => show win0_5.index t (1 : Fin 2) * 256 + 1 * (y 1).val = (y 1).val; omega

/-- Row p of point t's block of the aggregated features is row 2000 t + p of the array. -/
theorem read0 (A : S50000x128.Idx → EReal) (t : Fin cfg0.N) (p : Fin 2000) (j : Fin 128) :
    ((cfg0.win 0).blk t).view.read (Elt Ideal) A (ix2 p j) = A (ix2 (rowOf t p) j) := by
  obtain ⟨e0, e1, -⟩ := blockIndex t
  show A (((cfg0.win 0).blk t).view.emb (ix2 p j)) = _
  refine congrArg A (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * j.val = j.val; omega

/-- Likewise for the two factor columns. -/
theorem read1 (A : S50000x1.Idx → EReal) (t : Fin cfg0.N) (p : Fin 2000) :
    ((cfg0.win 1).blk t).view.read (Elt Ideal) A (ix2 p (0 : Fin 1)) = A (ix2 (rowOf t p) (0 : Fin 1)) := by
  obtain ⟨-, -, e0, e1, -⟩ := blockIndex t
  show A (((cfg0.win 1).blk t).view.emb (ix2 p (0 : Fin 1))) = _
  refine congrArg A (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

theorem read2 (A : S50000x1.Idx → EReal) (t : Fin cfg0.N) (p : Fin 2000) :
    ((cfg0.win 2).blk t).view.read (Elt Ideal) A (ix2 p (0 : Fin 1)) = A (ix2 (rowOf t p) (0 : Fin 1)) := by
  obtain ⟨-, -, -, -, e0, e1, -⟩ := blockIndex t
  show A (((cfg0.win 2).blk t).view.emb (ix2 p (0 : Fin 1))) = _
  refine congrArg A (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

/-- Where entry (p, q) of point t's output block lies in the array. -/
theorem out_emb (t : Fin cfg0.N) (p : Fin 2000) (q : Fin 256) :
    ((cfg0.win 6).blk t).view.emb (ix2 p q) = ix2 (rowOf t p) q := by
  obtain ⟨-, -, -, -, -, -, -, -, -, -, -, -, e0, e1⟩ := blockIndex t
  funext a
  refine Fin.ext ?_
  match a with
  | ⟨0, _⟩ => show win0_6.index t (0 : Fin 2) * 2000 + 1 * p.val = t.val * 2000 + p.val; omega
  | ⟨1, _⟩ => show win0_6.index t (1 : Fin 2) * 256 + 1 * q.val = q.val; omega

/-- WHAT POINT t's BODY LEAVES, written back, is block t of wholeLayers of the arrays — for any contents of the six arrays. -/
theorem flushed_core (A0 : S50000x128.Idx → EReal) (A1 A2 : S50000x1.Idx → EReal) (A3 : S128x384.Idx → EReal)
    (A4 : S1x384.Idx → EReal) (A5 : S384x256.Idx → EReal) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (wholeLayers A0 A1 A2 A3 A4 A5) := by
  unfold out0_6
  rw [View.canon_unit_zero zeroOffsets]
  simp only [View.ld_unit_zero (S := S2000x128) zeroOffsets, View.ld_unit_zero (S := S2000x1) zeroOffsets,
    View.ld_unit_zero (S := S128x384) zeroOffsets, View.ld_unit_zero (S := S1x384) zeroOffsets,
    View.ld_unit_zero (S := S384x256) zeroOffsets]
  rw [pay_eq, read3 A3 t, read4 A4 t, read5 A5 t]
  funext j
  obtain ⟨p, q, rfl⟩ : ∃ (p : Fin 2000) (q : Fin 256), j = ix2 p q := ⟨j 0, j 1, eq_ix2 j⟩
  show twoLayers (((cfg0.win 0).blk t).view.read (Elt Ideal) A0) (colVec (((cfg0.win 1).blk t).view.read (Elt Ideal) A1))
      (colVec (((cfg0.win 2).blk t).view.read (Elt Ideal) A2)) A3 (rowVec A4) A5 (ix2 p q)
    = wholeLayers A0 A1 A2 A3 A4 A5 (((cfg0.win 6).blk t).view.emb (ix2 p q))
  rw [out_emb t p q]
  exact twoLayers_row (((cfg0.win 0).blk t).view.read (Elt Ideal) A0) A0
    (colVec (((cfg0.win 1).blk t).view.read (Elt Ideal) A1)) (colVec (((cfg0.win 2).blk t).view.read (Elt Ideal) A2))
    (colVec A1) (colVec A2) A3 (rowVec A4) A5 p (rowOf t p) q
    (fun j => read0 A0 t p j) (read1 A1 t p) (read2 A2 t p)

end Cert.KernelIdeal.Bridge

end
-- ==== Proof.KFinal.lean ====
/-
  From the blocks to the array: what the kernel's result array holds after the region.

  What point t writes back is block t of wholeLayers of the six arrays the region finds (flushed_core, at those arrays); the 25
  blocks tile the 50000 rows (row r is in block r / 2000); hence the array ends at wholeLayers of them.
-/
import proofs.«108863_j41867341201760_2_alg».proof.Proof.KReads

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.ScaledLayers Cert.Layers
open Idealize.ShloMosaic.Pipeline (Dat)

variable (m : (ℓ : Loc nD τ sig) → Buf (Elt Ideal) ℓ)

/-- WHAT POINT t WRITES BACK is block t of wholeLayers of the arrays as the region finds them. -/
theorem flushed_eq (c : Dev nD) (t : Fin cfg0.N) :
    (dats m 0 c).flushed 6 t = ((cfg0.win 6).blk t).view.read (Elt Ideal)
      (wholeLayers (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  show (cfg0.win 6).cut (grid0.coords t) ((dats m 0 c).after 6 t) = _
  rw [after0_6]
  unfold iblk
  exact flushed_core (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-- An index of the array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v42).slice (win0_6.rect t)).set ↔ _
  rw [View.set_slice_whole, Rect.mem_set_unit]
  exact Iff.rfl

/-- The 25 blocks tile the array: row r is in block r / 2000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := gridPoints
  have ht : (i 0).val / 2000 < cfg0.N := by omega
  obtain ⟨-, -, -, -, -, -, -, -, -, -, -, -, e0, e1⟩ := blockIndex ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 256 ≤ (i 1).val
      ∧ (i 1).val < win0_6.index ⟨(i 0).val / 2000, ht⟩ (1 : Fin 2) * 256 + 256
    rw [e1]
    omega

/-- THE ARRAY after the region: wholeLayers of the arrays the region finds. -/
theorem final6 (c : Dev nD) : (dats m 0 c).arrAt 6 cfg0.N
    = wholeLayers (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6
    (wholeLayers (V m c (Pipeline.arrRef spec0 0)) (V m c (Pipeline.arrRef spec0 1)) (V m c (Pipeline.arrRef spec0 2))
      (V m c (Pipeline.arrRef spec0 3)) (V m c (Pipeline.arrRef spec0 4)) (V m c (Pipeline.arrRef spec0 5)))
    (fun t _ => flushed_eq m c t) cover

end Cert.KernelIdeal.Bridge

end
-- ==== Proof.KHost.lean ====
/-
  The kernel's host operations, as functions of the arguments.

  Before the region the host computes, from the edge list (row 0 the source nodes, row 1 the destination nodes): the
  out- and in-degree counts by an add-scatter of ones, clamped below at 1 and raised to the power -1/2 (norm), each kept as
  a [50000, 1] column; and the first aggregation: for each edge the source node's feature row (looked up at the source index,
  a negative index first wrapped by adding 50000) times the source node's out-norm (looked up the same way), add-scattered
  to the destination node (aggregate1). After the region it looks the result's rows up at the source indices again,
  add-scatters them to the destinations, scales each row by the in-norm column, adds the second bias and reshapes (tailOf).
  Everything here is stated for any float instance: nothing is evaluated. Each staged array as the region finds it, and
  the operands the tail reads, are these functions of the arguments: the host lines read back one by one.
-/
import proofs.«108863_j41867341201760_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable {F : FTy → Type} [FloatOps F]

/-- The source node of each edge. -/
def srcIdx (x5 : IVec S2x800000 32) : IVec S800000 32 :=
  shapeCast _ (extractStridedSlice S1x800000 ![0, 0] x5 slices_S2x800000_S1x800000_0_0) shapeCasts_S1x800000_S800000

/-- The destination node of each edge. -/
def dstIdx (x5 : IVec S2x800000 32) : IVec S800000 32 :=
  shapeCast _ (extractStridedSlice S1x800000 ![1, 0] x5 slices_S2x800000_S1x800000_1_0) shapeCasts_S1x800000_S800000

/-- An index list as an [E, 1] column of index vectors. -/
def asCol (idx : IVec S800000 32) : IVec S800000x1 32 := broadcastInDim S800000x1 ![0] bcast_S800000_S800000x1_0 idx

/-- How many edges carry each node in the list: ones add-scattered into zeros. -/
def degree (idx : IVec S800000 32) : FVec F S50000 .f32 :=
  Host.scatterAdd scatter_S50000_S800000x1_S800000_n_0_0_1 (broadcastInDim S50000 ![] bcast_S_S50000 (constant (F := F) S_ .f32 0x00000000#32))
    (asCol idx) (broadcastInDim S800000 ![] bcast_S_S800000 (constant (F := F) S_ .f32 0x3F800000#32))

/-- The degree clamped below at 1, to the power -1/2. -/
def norm (idx : IVec S800000 32) : FVec F S50000 .f32 :=
  Host.powf (F := F) (maximumf (F := F) (broadcastInDim S50000 ![] bcast_S_S50000 (id (constant (F := F) S_ .f32 0x3F800000#32))) (degree idx))
    (broadcastInDim S50000 ![] bcast_S_S50000 (constant (F := F) S_ .f32 0xBF000000#32))

/-- The look-up indices: a negative index wrapped by adding 50000, as a column. -/
def wrapCol (idx : IVec S800000 32) : IVec S800000x1 32 :=
  asCol (select (cmpi .slt idx (broadcastInDim S800000 ![] bcast_S_S800000 (constantI S_ 32 0#32)))
    (addi idx (broadcastInDim S800000 ![] bcast_S_S800000 (constantI S_ 32 50000#32))) idx)

/-- Each edge's message: the source's feature row times the source's out-norm. -/
def messages1 (x0 : FVec F S50000x128 .f32) (x5 : IVec S2x800000 32) : FVec F S800000x128 .f32 :=
  mulf (F := F) (extf (F := F) .f32 (Host.gather gather_S50000x128_S800000x1_S800000x128_1_0_n_n_0_1_1128 (truncf (F := F) .bf16 x0 bitsLt_bf16_f32) (wrapCol (srcIdx x5))) bitsLt_bf16_f32)
    (broadcastInDim S800000x128 ![0, 1] bcast_S800000x1_S800000x128_0_1
      (broadcastInDim S800000x1 ![0] bcast_S800000_S800000x1_0 (Host.gather gather_S50000_S800000x1_S800000_n_0_n_n_0_1_1 (norm (srcIdx x5)) (wrapCol (srcIdx x5)))))

/-- The first aggregation: the messages add-scattered to their destinations. -/
def aggregate1 (x0 : FVec F S50000x128 .f32) (x5 : IVec S2x800000 32) : FVec F S50000x128 .f32 :=
  Host.scatterAdd scatter_S50000x128_S800000x1_S800000x128_1_0_0_1 (broadcastInDim S50000x128 ![] bcast_S_S50000x128 (constant (F := F) S_ .f32 0x00000000#32))
    (asCol (dstIdx x5)) (messages1 x0 x5)

/-- The in-norm as a column. -/
def inCol (x5 : IVec S2x800000 32) : FVec F S50000x1 .f32 := shapeCast _ (norm (dstIdx x5)) shapeCasts_S50000_S50000x1

/-- The out-norm as a column. -/
def outCol (x5 : IVec S2x800000 32) : FVec F S50000x1 .f32 := shapeCast _ (norm (srcIdx x5)) shapeCasts_S50000_S50000x1

/-- The first bias as a row. -/
def biasRow (x2 : FVec F S384 .f32) : FVec F S1x384 .f32 := shapeCast _ x2 shapeCasts_S384_S1x384

/-- The host lines after the region, as a function of the region's result y, the in-norm column, the second bias and the
    edges' source and destination lists. -/
def tailOf (y : FVec F S50000x256 .f32) (cIn : FVec F S50000x1 .f32) (x4 : FVec F S256 .f32) (src dst : IVec S800000 32) :
    FVec F S50000x16x16 .f32 :=
  shapeCast _ (addf (F := F) (mulf (F := F)
      (Host.scatterAdd scatter_S50000x256_S800000x1_S800000x256_1_0_0_1 (broadcastInDim S50000x256 ![] bcast_S_S50000x256 (constant (F := F) S_ .f32 0x00000000#32))
        (asCol dst)
        (extf (F := F) .f32 (Host.gather gather_S50000x256_S800000x1_S800000x256_1_0_n_n_0_1_1256 (truncf (F := F) .bf16 y bitsLt_bf16_f32) (wrapCol src)) bitsLt_bf16_f32))
      (broadcastInDim S50000x256 ![0, 1] bcast_S50000x1_S50000x256_0_1 cIn))
    (broadcastInDim S50000x256 ![0, 1] bcast_S1x256_S50000x256_0_1 (broadcastInDim S1x256 ![1] bcast_S256_S1x256_1 x4)))
    shapeCasts_S50000x256_S50000x16x16

/-- THE TAIL READ BACK, over any contents W of the buffers when the lines after the region start: the result buffer ends at
    tailOf of what W holds at the region's result, the in-norm column, the second bias and the two index lists. -/
theorem tail_after (W : Valuation τ sig (Elt F)) (y : FVec F S50000x256 .f32) (cIn : FVec F S50000x1 .f32)
    (x4 : FVec F S256 .f32) (src dst : IVec S800000 32)
    (hy : W (Proc.devRef .tc main_v42) = y) (hc : W (Proc.devRef .tc main_v17) = cIn)
    (h4 : W (Proc.devRef .tc main_arg4) = x4) (hs : W (Proc.devRef .tc main_v1) = src)
    (hd : W (Proc.devRef .tc main_v3) = dst) :
    StableHlo.after (hostOps1 (F := F)) W (Proc.devRef .tc main_v60) = tailOf y cIn x4 src dst := by
  subst hy hc h4 hs hd
  simp only [hostOps1]
  after_results_simp
  rfl

variable (m : (ℓ : Loc nD τ sig) → Buf (Elt F) ℓ)

/-- The region finds the edge list's rows as the slices of the argument. -/
theorem V_src (c : Dev nD) : (V m c main_v1 : S800000.Idx → BitVec 32) = srcIdx (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results_simp
  rfl

theorem V_dst (c : Dev nD) : (V m c main_v3 : S800000.Idx → BitVec 32) = dstIdx (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results_simp
  rfl

/-- The in-norm column the region stages (window 1) and the tail reads. -/
theorem V_inCol (c : Dev nD) : (V m c main_v17 : S50000x1.Idx → Elt F .f32) = inCol (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results_simp
  rfl

/-- The out-norm column the region stages (window 2). -/
theorem V_outCol (c : Dev nD) : (V m c main_v18 : S50000x1.Idx → Elt F .f32) = outCol (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results_simp
  rfl

/-- The bias row the region stages (window 4). -/
theorem V_biasRow (c : Dev nD) : (V m c main_v41 : S1x384.Idx → Elt F .f32) = biasRow (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-- The aggregated features the region stages (window 0). -/
theorem V_aggregate1 (c : Dev nD) : (V m c main_v40 : S50000x128.Idx → Elt F .f32)
    = aggregate1 (m ((c : Thread nD τ).loc main_arg0)) (m ((c : Thread nD τ).loc main_arg5)) := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Bridge

end
-- ==== Proof.KRun.lean ====
/-
  The kernel's run, read end to end: what the result buffer holds, as a function of the arguments.

  The frame run leaves the result buffer at what the host lines after the region compute from the region's result array and
  the buffers the lines before it wrote. The region's result array is wholeLayers of the six staged arrays (final6); each
  staged array is its host function of the arguments (the host lines read back); the tail is tailOf. So the result is

      tailOf (wholeLayers (aggregate1 (F := Ideal) x0 x5) (inCol (F := Ideal) x5) (outCol (F := Ideal) x5) x1 (biasRow (F := Ideal) x2) x3) (inCol (F := Ideal) x5) x4 (srcIdx x5) (dstIdx x5)

  of the six arguments x0 .. x5, and the arguments end unchanged.
-/
import proofs.«108863_j41867341201760_2_alg».proof.Proof.KFinal
import proofs.«108863_j41867341201760_2_alg».proof.Proof.KHost

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.ScaledLayers Cert.Layers
open Idealize.ShloMosaic.Pipeline (Dat)

variable (m : (ℓ : Loc nD τ sig) → Buf (Elt Ideal) ℓ) (ρ : Dev nD → PrngReg)

/-- The region-entry contents at two names of one buffer. -/
theorem V_heq (c : Dev nD) {b b' : Ref sig .tc} (h : b = b') : HEq (V m c b) (V m c b') := by
  subst h; exact HEq.rfl

/-- The six staged arrays as the region finds them, as functions of the arguments. -/
theorem staged0 (c : Dev nD) : (V m c (Pipeline.arrRef spec0 0) : S50000x128.Idx → EReal)
    = aggregate1 (F := Ideal) (m ((c : Thread nD τ).loc main_arg0)) (m ((c : Thread nD τ).loc main_arg5)) :=
  (eq_of_heq (V_heq m c (b := Pipeline.arrRef spec0 0) (b' := main_v40) rfl)).trans (V_aggregate1 m c)

theorem staged1 (c : Dev nD) : (V m c (Pipeline.arrRef spec0 1) : S50000x1.Idx → EReal)
    = inCol (F := Ideal) (m ((c : Thread nD τ).loc main_arg5)) :=
  (eq_of_heq (V_heq m c (b := Pipeline.arrRef spec0 1) (b' := main_v17) rfl)).trans (V_inCol m c)

theorem staged2 (c : Dev nD) : (V m c (Pipeline.arrRef spec0 2) : S50000x1.Idx → EReal)
    = outCol (F := Ideal) (m ((c : Thread nD τ).loc main_arg5)) :=
  (eq_of_heq (V_heq m c (b := Pipeline.arrRef spec0 2) (b' := main_v18) rfl)).trans (V_outCol m c)

theorem staged3 (c : Dev nD) : (V m c (Pipeline.arrRef spec0 3) : S128x384.Idx → EReal)
    = m ((c : Thread nD τ).loc main_arg1) :=
  (eq_of_heq (V_heq m c (b := Pipeline.arrRef spec0 3) (b' := main_arg1) rfl)).trans (V_main_arg1 m c)

theorem staged4 (c : Dev nD) : (V m c (Pipeline.arrRef spec0 4) : S1x384.Idx → EReal)
    = biasRow (F := Ideal) (m ((c : Thread nD τ).loc main_arg2)) :=
  (eq_of_heq (V_heq m c (b := Pipeline.arrRef spec0 4) (b' := main_v41) rfl)).trans (V_biasRow m c)

theorem staged5 (c : Dev nD) : (V m c (Pipeline.arrRef spec0 5) : S384x256.Idx → EReal)
    = m ((c : Thread nD τ).loc main_arg3) :=
  (eq_of_heq (V_heq m c (b := Pipeline.arrRef spec0 5) (b' := main_arg3) rfl)).trans (V_main_arg3 m c)

/-- The kernel's result, as a function of the arguments. -/
def kernelResult (x0 : S50000x128.Idx → EReal) (x1 : S128x384.Idx → EReal) (x2 : S384.Idx → EReal)
    (x3 : S384x256.Idx → EReal) (x4 : S256.Idx → EReal) (x5 : IVec S2x800000 32) : S50000x16x16.Idx → EReal :=
  tailOf (F := Ideal) (wholeLayers (aggregate1 (F := Ideal) x0 x5) (inCol (F := Ideal) x5) (outCol (F := Ideal) x5) x1
    (biasRow (F := Ideal) x2) x3) (inCol (F := Ideal) x5) x4 (srcIdx x5) (dstIdx x5)

/-- The region's result array, as a function of the arguments. -/
theorem region_result (c : Dev nD) : (dats m 0 c).arrAt 6 cfg0.N
    = wholeLayers (aggregate1 (F := Ideal) (m ((c : Thread nD τ).loc main_arg0)) (m ((c : Thread nD τ).loc main_arg5)))
        (inCol (F := Ideal) (m ((c : Thread nD τ).loc main_arg5))) (outCol (F := Ideal) (m ((c : Thread nD τ).loc main_arg5)))
        (m ((c : Thread nD τ).loc main_arg1)) (biasRow (F := Ideal) (m ((c : Thread nD τ).loc main_arg2)))
        (m ((c : Thread nD τ).loc main_arg3)) := by
  rw [final6 m c, staged0 m c, staged1 m c, staged2 m c, staged3 m c, staged4 m c, staged5 m c]

/-- What the lines after the region leave in the result buffer. -/
theorem tail_result (c : Dev nD) :
    Pipeline.afterTail₀ cfgs (dats m) 0 (V0 m) [hostOps1] c main_v60
      = kernelResult (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀ kernelResult
  show StableHlo.after hostOps1 _ (Proc.devRef .tc main_v60) = _
  refine tail_after _ _ _ _ _ _ ?_ ?_ ?_ ?_ ?_
  · exact (Pipeline.withArrays_arr spec0 launch0.win.arr_inj c _ _ 6).trans (region_result m c)
  · exact (Pipeline.withArrays_arr spec0 launch0.win.arr_inj c _ _ 1).trans
      (((dats m 0 c).arrAt_in 1 rfl _).trans ((A_eq m c 1).trans (staged1 m c)))
  · exact (Pipeline.withArrays_of_ne spec0 c (V0 m c) _ main_arg4 (by decide)).trans (V_main_arg4 m c)
  · exact (Pipeline.withArrays_of_ne spec0 c (V0 m c) _ main_v1 (by decide)).trans (V_src m c)
  · exact (Pipeline.withArrays_of_ne spec0 c (V0 m c) _ main_v3 (by decide)).trans (V_dst m c)

/-- THE KERNEL'S RUN: every weakly fair execution terminates with the result buffer at kernelResult of the arguments and the
    arguments unchanged. -/
theorem run : θ_run defs (onTc (τ := τ) (main (F := Ideal))) ⟨m, fun _ => 0, ρ⟩ fun r => ∀ c : Dev nD,
      r.2.mem ((c.tc : Thread nD τ).loc main_v60)
        = kernelResult (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h c).2 main_v60 (Pipeline.mem_restRefs_of main_v60 (by decide) (by decide))).trans (tail_result m c),
        (((h c).2 main_arg0 (Pipeline.mem_restRefs_of main_arg0 (by decide) (by decide))).trans (W_main_arg0 m (dats m) c)),
        ((h c).1 3).trans (((dats m 0 c).arrAt_in 3 rfl _).trans ((A_eq m c 3).trans (V_main_arg1 m c))),
        (((h c).2 main_arg2 (Pipeline.mem_restRefs_of main_arg2 (by decide) (by decide))).trans (W_main_arg2 m (dats m) c)),
        ((h c).1 5).trans (((dats m 0 c).arrAt_in 5 rfl _).trans ((A_eq m c 5).trans (V_main_arg3 m c))),
        (((h c).2 main_arg4 (Pipeline.mem_restRefs_of main_arg4 (by decide) (by decide))).trans (W_main_arg4 m (dats m) c)),
        (((h c).2 main_arg5 (Pipeline.mem_restRefs_of main_arg5 (by decide) (by decide))).trans (W_main_arg5 m (dats m) c))⟩)
    (run_main m ρ)

end Cert.KernelIdeal.Bridge

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibGatherScale.lean ====
/-
  A row gather of a row-scaled matrix is the gathered rows scaled by the gathered factors.

  For a matrix x : [N, C], a per-row factor s : [N] and indices idx : [E] (laid out [E, 1]), taking rows of
  (x scaled row by row by s) at idx gives, at (e, q), x(r, q) * s(r) with r the row that index e selects (read signed and
  clamped into [0, N - 1]); taking rows of x at idx and elements of s at the SAME indices, and multiplying the gathered
  row e by the gathered factor e, gives the same product, because the two gathers clamp alike. No law of arithmetic is
  used: the two sides are the same product of the same two entries. Also here: the element gather from a vector read at an
  index, and a vector reshaped to a column being the vector broadcast along axis 0.
-/
import Idealize.ShloMosaic.Lib.Pipeline.Value
import Idealize.ShloMosaic.Lib.ValueIdx
import Idealize.ShloMosaic.PureOps.Ideal
import proofs.«108863_j41867341201760_2_alg».proof.Proof.LibGatherRows
import proofs.«108863_j41867341201760_2_alg».proof.Proof.LibBroadcastInDim
import proofs.«108863_j41867341201760_2_alg».proof.Proof.LibKeepdims

noncomputable section

namespace Cert.Lib.GatherScale

open Idealize.ShloMosaic Idealize.ShloMosaic.ValueIdx Idealize.ShloMosaic.GatherRows

variable {α : Type}

/-- The dimension numbers of an element gather from a vector: v[idx] for v : [N] and idx : [E] laid out [E, 1]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element gather read at e: the vector's element at the row index e selects. -/
theorem vec_gather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecDims N E wf) v idx (ix1 e) = v (ix1 (clampRow N hN (idx (ix2 e 0)))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- A vector reshaped to a column is the vector broadcast along axis 0. -/
theorem castCol_eq_vecAsCol {a : Nat} (v : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v hc = broadcastInDim ⟨2, ![a, 1]⟩ ![0] hb v := by
  funext i
  obtain ⟨p, u, rfl⟩ : ∃ (p : Fin a) (u : Fin 1), i = ix2 p u := ⟨i 0, i 1, eq_ix2 i⟩
  obtain rfl : u = 0 := Subsingleton.elim _ _
  exact (Cert.Lib.Keepdims.castCol_apply v hc p).trans (Cert.Lib.BroadcastInDim.vecAsCol_apply hb v p).symm

/-- THE COMMUTATION: rows of x gathered and scaled by the gathered factors are the gathered rows of the scaled x. The
    format changes around the first gather are the identity on the extended reals. -/
theorem gather_scale {N E C : Nat} {ψ : FTy} (hN : 0 < N)
    (wf : GatherDims.WF ⟨2, ![N, C]⟩ ⟨2, ![E, 1]⟩ ⟨2, ![E, C]⟩ [1] [0] [] [0] [] 1 ![1, C])
    (wf1 : GatherDims.WF ⟨1, ![N]⟩ ⟨2, ![E, 1]⟩ ⟨1, ![E]⟩ [] [0] [] [0] [] 1 ![1])
    (d : GatherDims ⟨2, ![N, C]⟩ ⟨2, ![E, 1]⟩ ⟨2, ![E, C]⟩) (hd : d = rowsDims N E C wf)
    (d1 : GatherDims ⟨1, ![N]⟩ ⟨2, ![E, 1]⟩ ⟨1, ![E]⟩) (hd1 : d1 = vecDims N E wf1)
    (x : FVec Ideal ⟨2, ![N, C]⟩ .f32) (s : FVec Ideal ⟨1, ![N]⟩ .f32) (idx : IVec ⟨2, ![E, 1]⟩ 32)
    (hψ : ψ.bits < FTy.f32.bits)
    (hE1 : (⟨1, ![E]⟩ : Shape).BroadcastsInDim ⟨2, ![E, 1]⟩ (![0] : Fin 1 → Fin 2))
    (hE2 : (⟨2, ![E, 1]⟩ : Shape).BroadcastsInDim ⟨2, ![E, C]⟩ (![0, 1] : Fin 2 → Fin 2))
    (hN1 : (⟨1, ![N]⟩ : Shape).BroadcastsInDim ⟨2, ![N, 1]⟩ (![0] : Fin 1 → Fin 2))
    (hN2 : (⟨2, ![N, 1]⟩ : Shape).BroadcastsInDim ⟨2, ![N, C]⟩ (![0, 1] : Fin 2 → Fin 2)) :
    mulf (extf .f32 (Host.gather d (truncf ψ x hψ) idx) hψ)
        (broadcastInDim ⟨2, ![E, C]⟩ ![0, 1] hE2 (broadcastInDim ⟨2, ![E, 1]⟩ ![0] hE1 (Host.gather d1 s idx)))
      = Host.gather d (mulf x (broadcastInDim ⟨2, ![N, C]⟩ ![0, 1] hN2 (broadcastInDim ⟨2, ![N, 1]⟩ ![0] hN1 s))) idx := by
  subst hd hd1
  funext i
  obtain ⟨e, q, rfl⟩ : ∃ (e : Fin E) (q : Fin C), i = ix2 e q := ⟨i 0, i 1, eq_ix2 i⟩
  rw [rows_gather_apply hN wf _ idx e q]
  show Host.gather (rowsDims N E C wf) (truncf ψ x hψ) idx (ix2 e q)
      * broadcastInDim ⟨2, ![E, C]⟩ ![0, 1] hE2 (broadcastInDim ⟨2, ![E, 1]⟩ ![0] hE1 (Host.gather (vecDims N E wf1) s idx)) (ix2 e q)
    = x (ix2 (clampRow N hN (idx (ix2 e 0))) q)
      * broadcastInDim ⟨2, ![N, C]⟩ ![0, 1] hN2 (broadcastInDim ⟨2, ![N, 1]⟩ ![0] hN1 s) (ix2 (clampRow N hN (idx (ix2 e 0))) q)
  rw [rows_gather_apply hN wf _ idx e q,
    Cert.Lib.BroadcastInDim.colAcross_apply hE2 _ e q, Cert.Lib.BroadcastInDim.vecAsCol_apply hE1 _ e,
    vec_gather_apply hN wf1 s idx e,
    Cert.Lib.BroadcastInDim.colAcross_apply hN2 _ _ q, Cert.Lib.BroadcastInDim.vecAsCol_apply hN1 _ _]
  rfl

end Cert.Lib.GatherScale

end
-- ==== Proof.Bridge.lean ====
/-
  The two programs compute one function.

  The reference computes, on the host, the same degree norms and the same first aggregation as the kernel's host lines, except
  that it scales the feature rows by the out-norm BEFORE looking them up at the source indices where the kernel looks the rows
  and the out-norms up separately and multiplies after: the same product of the same two entries, because both look-ups clamp
  alike (gather_scale). It then takes twoLayers of the whole [50000, 128] aggregate with general products on the host, where the
  kernel takes it block by block on the matrix unit (host_twoLayers, and wholeLayers from the blocks). Both end with the same
  second aggregation, in-norm scaling, bias and reshape, the kernel's in-norm column being a reshape where the reference's is a
  broadcast along axis 0 (castCol_eq_vecAsCol), and the kernel's format changes around the look-up the identity on the extended
  reals. No law of arithmetic is needed, and no finiteness: the two results are the same sums of the same products.

  The host stages that both programs spell alike are identified for ANY float instance (so nothing is evaluated); only the
  three steps above are taken on the extended reals.
-/
import proofs.«108863_j41867341201760_2_alg».proof.Proof.KRun
import proofs.«108863_j41867341201760_2_alg».proof.Proof.LibGatherScale
import proofs.«108863_j41867341201760_2_alg».proof.Proof.Gen.ReferenceIdeal.Read

set_option maxRecDepth 16384

noncomputable section

namespace Cert.Bridge

open Cert.KernelIdeal Cert.KernelIdeal.Bridge Idealize.ShloMosaic Idealize.ShloMosaic.ValueIdx
open Cert.ScaledLayers Cert.Layers
open Cert.KernelIdeal.Facts₀ Cert.KernelIdeal.Facts

/-! ## The stages both programs spell alike, for any float instance -/

section AnyInstance

variable {F : FTy → Type} [FloatOps F]

/-- The reference's out-norm is the kernel's. -/
theorem outNorm_eq (x5 : IVec S2x800000 32) : Cert.ReferenceIdeal.Read.val_main_v13 (F := F) x5 = norm (F := F) (srcIdx x5) := rfl

/-- The reference's in-norm is the kernel's. -/
theorem inNorm_eq (x5 : IVec S2x800000 32) : Cert.ReferenceIdeal.Read.val_main_v16 (F := F) x5 = norm (F := F) (dstIdx x5) := rfl

/-- The first aggregation as the reference spells it: the feature rows scaled by the out-norm, looked up at the wrapped
    source indices, add-scattered to the destinations. -/
def aggregateScaled (x0 : FVec F S50000x128 .f32) (x5 : IVec S2x800000 32) : FVec F S50000x128 .f32 :=
  Host.scatterAdd scatter_S50000x128_S800000x1_S800000x128_1_0_0_1 (broadcastInDim S50000x128 ![] bcast_S_S50000x128 (constant (F := F) S_ .f32 0x00000000#32))
    (asCol (dstIdx x5))
    (Host.gather gather_S50000x128_S800000x1_S800000x128_1_0_n_n_0_1_1128
      (mulf (F := F) x0 (broadcastInDim S50000x128 ![0, 1] Cert.ReferenceIdeal.Facts₀.bcast_S50000x1_S50000x128_0_1
        (broadcastInDim S50000x1 ![0] Cert.ReferenceIdeal.Facts₀.bcast_S50000_S50000x1_0 (norm (F := F) (srcIdx x5)))))
      (wrapCol (srcIdx x5)))

theorem ref_aggregate (x0 : FVec F S50000x128 .f32) (x5 : IVec S2x800000 32) :
    Cert.ReferenceIdeal.Read.val_main_v29 (F := F) x0 x5 = aggregateScaled x0 x5 := rfl

/-- The host lines after the second dense layer as the reference spells them, of the layers' result y, the in-norm vector,
    the second bias and the edges' source and destination lists. -/
def tailRef (y : FVec F S50000x256 .f32) (nIn : FVec F S50000 .f32) (x4 : FVec F S256 .f32) (src dst : IVec S800000 32) :
    FVec F S50000x16x16 .f32 :=
  shapeCast _ (addf (F := F) (mulf (F := F)
      (Host.scatterAdd scatter_S50000x256_S800000x1_S800000x256_1_0_0_1 (broadcastInDim S50000x256 ![] bcast_S_S50000x256 (constant (F := F) S_ .f32 0x00000000#32))
        (asCol dst) (Host.gather gather_S50000x256_S800000x1_S800000x256_1_0_n_n_0_1_1256 y (wrapCol src)))
      (broadcastInDim S50000x256 ![0, 1] bcast_S50000x1_S50000x256_0_1
        (broadcastInDim S50000x1 ![0] Cert.ReferenceIdeal.Facts₀.bcast_S50000_S50000x1_0 nIn)))
    (broadcastInDim S50000x256 ![0, 1] bcast_S1x256_S50000x256_0_1 (broadcastInDim S1x256 ![1] bcast_S256_S1x256_1 x4)))
    shapeCasts_S50000x256_S50000x16x16

theorem ref_tail (x0 : FVec F S50000x128 .f32) (x1 : FVec F S128x384 .f32) (x2 : FVec F S384 .f32) (x3 : FVec F S384x256 .f32)
    (x4 : FVec F S256 .f32) (x5 : IVec S2x800000 32) :
    Cert.ReferenceIdeal.Read.val_main_v58 (F := F) x0 x1 x2 x3 x4 x5
      = tailRef (Cert.ReferenceIdeal.Read.val_main_v41 (F := F) x0 x1 x2 x3 x5) (Cert.ReferenceIdeal.Read.val_main_v16 (F := F) x5) x4 (srcIdx x5) (dstIdx x5) := rfl

end AnyInstance

/-! ## On the extended reals -/

/-- A column made by reshaping a vector, read back as a vector, is the vector. -/
theorem colVec_cast {a : Nat} (v : Row a) (h : (⟨1, ![a]⟩ : Shape).ShapeCasts ⟨2, ![a, 1]⟩) :
    colVec (shapeCast ⟨2, ![a, 1]⟩ v h) = v := by
  funext i
  rw [eq_ix1 i]
  exact Cert.Lib.Keepdims.castCol_apply v h (i 0)

/-- A row made by reshaping a vector, read back as a vector, is the vector. -/
theorem rowVec_cast {n : Nat} (v : Row n) (h : (⟨1, ![n]⟩ : Shape).ShapeCasts ⟨2, ![1, n]⟩) :
    rowVec (shapeCast ⟨2, ![1, n]⟩ v h) = v := by
  funext i
  rw [eq_ix1 i]
  exact shapeCast_a_1a_apply v h 0 (i 0)

/-- Widening a float format is the identity on the extended reals. -/
theorem extf_id {s : Shape} {ψ : FTy} (v : FVec Ideal s ψ) (hψ : ψ.bits < FTy.f32.bits) : extf .f32 v hψ = v := rfl

/-- THE FIRST AGGREGATION: look up, then scale by the looked-up norm (the kernel) is scale, then look up (the reference). -/
theorem aggregate1_eq (x0 : S50000x128.Idx → EReal) (x5 : IVec S2x800000 32) :
    aggregate1 (F := Ideal) x0 x5 = Cert.ReferenceIdeal.Read.val_main_v29 (F := Ideal) x0 x5 := by
  rw [ref_aggregate (F := Ideal) x0 x5]
  unfold aggregate1 messages1 aggregateScaled
  exact congrArg
    (Host.scatterAdd scatter_S50000x128_S800000x1_S800000x128_1_0_0_1 (broadcastInDim S50000x128 ![] bcast_S_S50000x128 (constant (F := Ideal) S_ .f32 0x00000000#32))
      (asCol (dstIdx x5)))
    (Cert.Lib.GatherScale.gather_scale (N := 50000) (E := 800000) (C := 128) (by omega)
      Facts₀.gather_S50000x128_S800000x1_S800000x128_1_0_n_n_0_1_1128_wf Facts₀.gather_S50000_S800000x1_S800000_n_0_n_n_0_1_1_wf gather_S50000x128_S800000x1_S800000x128_1_0_n_n_0_1_1128 rfl gather_S50000_S800000x1_S800000_n_0_n_n_0_1_1 rfl x0 (norm (F := Ideal) (srcIdx x5)) (wrapCol (srcIdx x5))
      bitsLt_bf16_f32 Facts₀.bcast_S800000_S800000x1_0 Facts₀.bcast_S800000x1_S800000x128_0_1
      Cert.ReferenceIdeal.Facts₀.bcast_S50000_S50000x1_0 Cert.ReferenceIdeal.Facts₀.bcast_S50000x1_S50000x128_0_1)

/-- THE TWO DENSE LAYERS on the host are twoLayers of the whole aggregate. -/
theorem ref_layers (x0 : S50000x128.Idx → EReal) (x1 : S128x384.Idx → EReal) (x2 : S384.Idx → EReal)
    (x3 : S384x256.Idx → EReal) (x5 : IVec S2x800000 32) :
    Cert.ReferenceIdeal.Read.val_main_v41 (F := Ideal) x0 x1 x2 x3 x5
      = twoLayers (Cert.ReferenceIdeal.Read.val_main_v29 (F := Ideal) x0 x5) (Cert.ReferenceIdeal.Read.val_main_v16 (F := Ideal) x5)
          (Cert.ReferenceIdeal.Read.val_main_v13 (F := Ideal) x5) x1 x2 x3 := by
  unfold Cert.ReferenceIdeal.Read.val_main_v41 Cert.ReferenceIdeal.Read.val_main_v38 Cert.ReferenceIdeal.Read.val_main_v37 Cert.ReferenceIdeal.Read.val_main_v36 Cert.ReferenceIdeal.Read.val_main_v33 Cert.ReferenceIdeal.Read.val_main_v32
    Cert.ReferenceIdeal.Read.val_main_v31 Cert.ReferenceIdeal.Read.val_main_v30 Cert.ReferenceIdeal.Read.val_main_v35 Cert.ReferenceIdeal.Read.val_main_v34 Cert.ReferenceIdeal.Read.val_main_v40 Cert.ReferenceIdeal.Read.val_main_v39
    Cert.ReferenceIdeal.Read.val_main_call2_v0 Cert.ReferenceIdeal.Read.val_main_call2_cst
  exact host_twoLayers Cert.ReferenceIdeal.dot_S50000x128_S128x384_S50000x384_1_0_0_1_n_n
    Cert.ReferenceIdeal.Facts₀.dot_S50000x128_S128x384_S50000x384_1_0_0_1_n_n_wf rfl
    Cert.ReferenceIdeal.dot_S50000x384_S384x256_S50000x256_1_0_0_1_n_n
    Cert.ReferenceIdeal.Facts₀.dot_S50000x384_S384x256_S50000x256_1_0_0_1_n_n_wf rfl
    (Cert.ReferenceIdeal.Read.val_main_v29 (F := Ideal) x0 x5) (Cert.ReferenceIdeal.Read.val_main_v16 (F := Ideal) x5) (Cert.ReferenceIdeal.Read.val_main_v13 (F := Ideal) x5) x1 x2 x3
    Cert.ReferenceIdeal.Facts₀.bcast_S50000_S50000x1_0 Cert.ReferenceIdeal.Facts₀.bcast_S50000x1_S50000x128_0_1 Cert.ReferenceIdeal.Facts₀.bcast_S384_S1x384_1
    Cert.ReferenceIdeal.Facts₀.bcast_S1x384_S50000x384_0_1 Cert.ReferenceIdeal.Facts₀.bcast_S_S50000x384 Cert.ReferenceIdeal.Facts₀.bcast_S50000x1_S50000x256_0_1

/-- The kernel's result array (from its blocks) is the reference's second dense layer's scaled result. -/
theorem layers_agree (x0 : S50000x128.Idx → EReal) (x1 : S128x384.Idx → EReal) (x2 : S384.Idx → EReal)
    (x3 : S384x256.Idx → EReal) (x5 : IVec S2x800000 32) :
    wholeLayers (aggregate1 (F := Ideal) x0 x5) (inCol (F := Ideal) x5) (outCol (F := Ideal) x5) x1 (biasRow (F := Ideal) x2) x3
      = Cert.ReferenceIdeal.Read.val_main_v41 (F := Ideal) x0 x1 x2 x3 x5 := by
  unfold wholeLayers inCol outCol biasRow
  rw [colVec_cast, colVec_cast, rowVec_cast, aggregate1_eq x0 x5, ref_layers x0 x1 x2 x3 x5, inNorm_eq (F := Ideal) x5,
    outNorm_eq (F := Ideal) x5]

/-- THE TAIL: the kernel's, with its in-norm column a reshape and its format changes around the look-up, is the reference's. -/
theorem tail_agree (y : S50000x256.Idx → EReal) (x4 : S256.Idx → EReal) (x5 : IVec S2x800000 32) :
    tailOf (F := Ideal) y (inCol (F := Ideal) x5) x4 (srcIdx x5) (dstIdx x5)
      = tailRef (F := Ideal) y (norm (F := Ideal) (dstIdx x5)) x4 (srcIdx x5) (dstIdx x5) := by
  unfold tailOf tailRef inCol
  rw [truncf_id, extf_id,
    Cert.Lib.GatherScale.castCol_eq_vecAsCol (norm (F := Ideal) (dstIdx x5)) Facts₀.shapeCasts_S50000_S50000x1
      Cert.ReferenceIdeal.Facts₀.bcast_S50000_S50000x1_0]

/-- THE TWO RESULTS are one function of the arguments. -/
theorem results_agree (x0 : S50000x128.Idx → EReal) (x1 : S128x384.Idx → EReal) (x2 : S384.Idx → EReal)
    (x3 : S384x256.Idx → EReal) (x4 : S256.Idx → EReal) (x5 : IVec S2x800000 32) :
    kernelResult x0 x1 x2 x3 x4 x5 = Cert.ReferenceIdeal.Read.val_main_v58 (F := Ideal) x0 x1 x2 x3 x4 x5 := by
  unfold kernelResult
  rw [tail_agree, layers_agree x0 x1 x2 x3 x5, ref_tail (F := Ideal) x0 x1 x2 x3 x4 x5, inNorm_eq (F := Ideal) x5]

end Cert.Bridge

end
-- ==== Proof.lean ====
/-
  A two-layer graph convolution: a fused kernel against its plain reference, equal on the extended reals.

  Inputs: node features x0 [50000, 128], weights x1 [128, 384] and x3 [384, 256], biases x2 [384] and x4 [256], and an edge
  list x5 [2, 800000] (row 0 the source node of each edge, row 1 its destination). With dOut, dIn the out- and in-degree
  counts clamped below at 1 and raised to the power -1/2, both programs compute, for node n and output column q,

      agg(n, i)  = sum over edges e into n of  x0(src e, i) * dOut(src e)
      y(n, q)    = ( sum_k max( sum_i (agg(n, i) * dIn(n)) * x1(i, k) + x2(k), 0 ) * x3(k, q) ) * dOut(n)
      out(n, q)  = ( sum over edges e into n of  y(src e, q) ) * dIn(n) + x4(q),

  reshaped to [50000, 16, 16]. The reference does all of it on the host. The kernel does the two aggregations on the host and the
  two dense layers between the two scalings (the middle line) in one pipelined region over 25 blocks of 2000 rows.

  The three frames are the generated ones (the reference's is its generated run with the result dropped); the kernel has no
  ledger entry, so the idealization claim is trivial; the algebraic claim sets the kernel's run read end to end (KRun) beside the
  reference's generated run, the two results being one function of the arguments (Bridge). The precondition is never opened:
  the two sides take the same sums of the same products.
-/
import proofs.«108863_j41867341201760_2_alg».proof.Defs
import proofs.«108863_j41867341201760_2_alg».proof.Proof.Gen.Kernel
import proofs.«108863_j41867341201760_2_alg».proof.Proof.Gen.Kernel.Skeleton
import proofs.«108863_j41867341201760_2_alg».proof.Proof.Gen.Kernel.Launch
import proofs.«108863_j41867341201760_2_alg».proof.Proof.Gen.Kernel.Points
import proofs.«108863_j41867341201760_2_alg».proof.Proof.Gen.Kernel.Frame
import proofs.«108863_j41867341201760_2_alg».proof.Proof.Gen.KernelIdeal
import proofs.«108863_j41867341201760_2_alg».proof.Proof.Gen.KernelIdeal.Skeleton
import proofs.«108863_j41867341201760_2_alg».proof.Proof.Gen.KernelIdeal.Launch
import proofs.«108863_j41867341201760_2_alg».proof.Proof.Gen.KernelIdeal.Points
import proofs.«108863_j41867341201760_2_alg».proof.Proof.Gen.KernelIdeal.Frame
import proofs.«108863_j41867341201760_2_alg».proof.Proof.Gen.ReferenceIdeal
import proofs.«108863_j41867341201760_2_alg».proof.Proof.Gen.Pre_finite_inputs
import proofs.«108863_j41867341201760_2_alg».proof.Proof.Gen.ReferenceIdeal.Run
import proofs.«108863_j41867341201760_2_alg».proof.Proof.Gen.ReferenceIdeal.Read
import proofs.«108863_j41867341201760_2_alg».proof.Proof.KRun
import proofs.«108863_j41867341201760_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs run, and end with one result: the kernel's run read end to end, the
    reference's generated run, and the two results one function of the arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1,
    (hagree c).2.2.2.2.1, (hagree c).2.2.2.2.2]
  exact (Cert.Bridge.results_agree _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
